-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : IVec S800000 32) (main_arg8 : IVec S800000 32) (main_arg9 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S2000x128 : Shape := ⟨2, ![2000, 128]⟩
abbrev S2000x1 : Shape := ⟨2, ![2000, 1]⟩
abbrev S800000x128 : Shape := ⟨2, ![800000, 128]⟩
abbrev S1x128 : Shape := ⟨2, ![1, 128]⟩
abbrev S8 : Shape := ⟨1, ![8]⟩
abbrev S8x128 : Shape := ⟨2, ![8, 128]⟩
abbrev S8x1 : Shape := ⟨2, ![8, 1]⟩
abbrev S8x64 : Shape := ⟨2, ![8, 64]⟩
abbrev S1x64 : Shape := ⟨2, ![1, 64]⟩

abbrev nBuf : Space → Nat
  | .hbm => 87
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S800000, .i32⟩
  | .hbm, ⟨8, _⟩ => ⟨S800000, .i32⟩
  | .hbm, ⟨9, _⟩ => ⟨S50000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000, .f32⟩
  | .hbm, ⟨68, _⟩ => ⟨S_, .f32⟩
  | .hbm, ⟨69, _⟩ => ⟨S8, .f32⟩
  | .hbm, ⟨70, _⟩ => ⟨S50000x1, .i32⟩
  | .hbm, ⟨71, _⟩ => ⟨S8, .f32⟩
  | .hbm, ⟨72, _⟩ => ⟨S_, .f32⟩
  | .hbm, ⟨73, _⟩ => ⟨S8x128, .f32⟩
  | .hbm, ⟨74, _⟩ => ⟨S50000x1, .i32⟩
  | .hbm, ⟨75, _⟩ => ⟨S8x128, .f32⟩
  | .hbm, ⟨76, _⟩ => ⟨S_, .f32⟩
  | .hbm, ⟨77, _⟩ => ⟨S_, .f32⟩
  | .hbm, ⟨78, _⟩ => ⟨S8, .f32⟩
  | .hbm, ⟨79, _⟩ => ⟨S8, .f32⟩
  | .hbm, ⟨80, _⟩ => ⟨S8x1, .f32⟩
  | .hbm, ⟨81, _⟩ => ⟨S8x128, .f32⟩
  | .hbm, ⟨82, _⟩ => ⟨S8x128, .f32⟩
  | .hbm, ⟨83, _⟩ => ⟨S8x64, .f32⟩
  | .hbm, ⟨84, _⟩ => ⟨S1x64, .f32⟩
  | .hbm, ⟨85, _⟩ => ⟨S8x64, .f32⟩
  | .hbm, ⟨86, _⟩ => ⟨S8x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x1, .f32⟩
  | .local _ .vmem, ⟨13, _⟩ => ⟨S2000x1, .f32⟩
  | .local _ .vmem, ⟨14, _⟩ => ⟨S128x128, .f32⟩
  | .local _ .vmem, ⟨15, _⟩ => ⟨S2000x128, .f32⟩
  | .local _ .vmem, ⟨16, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_9 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_call2_v0 : Ref sig .tc := ⟨.hbm, 77, rfl⟩
abbrev main_call2_v1 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  bcast_S_S8 : S_.BroadcastsInDim S8 (![] : Fin 0 → Fin S8.rank)
  bcast_S50000_S50000x1_0 : S50000.BroadcastsInDim S50000x1 (![0] : Fin 1 → Fin S50000x1.rank)
  bcast_S_S8x128 : S_.BroadcastsInDim S8x128 (![] : Fin 0 → Fin S8x128.rank)
  bcast_S8_S8x1_0 : S8.BroadcastsInDim S8x1 (![0] : Fin 1 → Fin S8x1.rank)
  bcast_S8x1_S8x128_0_1 : S8x1.BroadcastsInDim S8x128 (![0, 1] : Fin 2 → Fin S8x128.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S8_S50000x1_S50000_n_0_0_1_wf : ScatterDims.WF S8 S50000x1 S50000 [] [0] [0] 1
  scatter_S8x128_S50000x1_S50000x128_1_0_0_1_wf : ScatterDims.WF S8x128 S50000x1 S50000x128 [1] [0] [0] 1
  dot_S8x128_S128x64_S8x64_1_0_0_1_n_n_wf : DotDims.WF S8x128 S128x64 S8x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S8_S50000x1_S50000_n_0_0_1 : ScatterDims S8 S50000x1 S50000 where
  updateWindowDims := []
  insertedWindowDims := [0]
  scatterDimsToOperandDims := [0]
  indexVectorDim := 1
  wf := scatter_S8_S50000x1_S50000_n_0_0_1_wf
def scatter_S8x128_S50000x1_S50000x128_1_0_0_1 : ScatterDims S8x128 S50000x1 S50000x128 where
  updateWindowDims := [1]
  insertedWindowDims := [0]
  scatterDimsToOperandDims := [0]
  indexVectorDim := 1
  wf := scatter_S8x128_S50000x1_S50000x128_1_0_0_1_wf
def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S800000 : Shape := ⟨1, ![800000]⟩
abbrev S50000 : Shape := ⟨1, ![50000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S8 : Shape := ⟨1, ![8]⟩
abbrev S8x128 : Shape := ⟨2, ![8, 128]⟩
abbrev S8x1 : Shape := ⟨2, ![8, 1]⟩
abbrev S8x64 : Shape := ⟨2, ![8, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S800000, .i32⟩
  | .hbm, ⟨8, _⟩ => ⟨S800000, .i32⟩
  | .hbm, ⟨9, _⟩ => ⟨S50000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S800000x1, .i32⟩
  | .hbm, ⟨65, _⟩ => ⟨S50000, .f32⟩
  | .hbm, ⟨66, _⟩ => ⟨S_, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000, .f32⟩
  | .hbm, ⟨71, _⟩ => ⟨S_, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S50000x1, .f32⟩
  | .hbm, ⟨94, _⟩ => ⟨S50000x128, .f32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000, .f32⟩
  | .hbm, ⟨101, _⟩ => ⟨S_, .f32⟩
  | .hbm, ⟨102, _⟩ => ⟨S8, .f32⟩
  | .hbm, ⟨103, _⟩ => ⟨S50000x1, .i32⟩
  | .hbm, ⟨104, _⟩ => ⟨S8, .f32⟩
  | .hbm, ⟨105, _⟩ => ⟨S_, .f32⟩
  | .hbm, ⟨106, _⟩ => ⟨S8x128, .f32⟩
  | .hbm, ⟨107, _⟩ => ⟨S50000x1, .i32⟩
  | .hbm, ⟨108, _⟩ => ⟨S8x128, .f32⟩
  | .hbm, ⟨109, _⟩ => ⟨S_, .f32⟩
  | .hbm, ⟨110, _⟩ => ⟨S_, .f32⟩
  | .hbm, ⟨111, _⟩ => ⟨S8, .f32⟩
  | .hbm, ⟨112, _⟩ => ⟨S8, .f32⟩
  | .hbm, ⟨113, _⟩ => ⟨S8x1, .f32⟩
  | .hbm, ⟨114, _⟩ => ⟨S8x128, .f32⟩
  | .hbm, ⟨115, _⟩ => ⟨S8x128, .f32⟩
  | .hbm, ⟨116, _⟩ => ⟨S8x64, .f32⟩
  | .hbm, ⟨117, _⟩ => ⟨S1x64, .f32⟩
  | .hbm, ⟨118, _⟩ => ⟨S8x64, .f32⟩
  | .hbm, ⟨119, _⟩ => ⟨S8x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v7 : Ref sig .tc := ⟨.hbm, 23, rfl⟩
abbrev main_v8 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call2_cst : Ref sig .tc := ⟨.hbm, 53, rfl⟩
abbrev main_call2_v0 : Ref sig .tc := ⟨.hbm, 54, rfl⟩
abbrev main_v31 : Ref sig .tc := ⟨.hbm, 55, rfl⟩
abbrev main_cst_6 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_8 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_9 : Ref sig .tc := ⟨.hbm, 66, rfl⟩
abbrev main_call3_v0 : Ref sig .tc := ⟨.hbm, 67, rfl⟩
abbrev main_call3_v1 : Ref sig .tc := ⟨.hbm, 68, rfl⟩
abbrev main_v39 : Ref sig .tc := ⟨.hbm, 69, rfl⟩
abbrev main_v40 : Ref sig .tc := ⟨.hbm, 70, rfl⟩
abbrev main_cst_10 : Ref sig .tc := ⟨.hbm, 71, rfl⟩
abbrev main_call4_v0 : Ref sig .tc := ⟨.hbm, 72, rfl⟩
abbrev main_call4_v1 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_11 : Ref sig .tc := ⟨.hbm, 80, rfl⟩
abbrev main_v47 : Ref sig .tc := ⟨.hbm, 81, rfl⟩
abbrev main_v48 : Ref sig .tc := ⟨.hbm, 82, rfl⟩
abbrev main_c_12 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_13 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_cst_15 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_16 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_17 : Ref sig .tc := ⟨.hbm, 109, rfl⟩
abbrev main_call5_v0 : Ref sig .tc := ⟨.hbm, 110, rfl⟩
abbrev main_call5_v1 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S8 : S_.BroadcastsInDim S8 (![] : Fin 0 → Fin S8.rank)
  bcast_S_S8x128 : S_.BroadcastsInDim S8x128 (![] : Fin 0 → Fin S8x128.rank)
  bcast_S8_S8x1_0 : S8.BroadcastsInDim S8x1 (![0] : Fin 1 → Fin S8x1.rank)
  bcast_S8x1_S8x128_0_1 : S8x1.BroadcastsInDim S8x128 (![0, 1] : Fin 2 → Fin S8x128.rank)
  bcast_S64_S1x64_1 : S64.BroadcastsInDim S1x64 (![1] : Fin 1 → Fin S1x64.rank)
  bcast_S1x64_S8x64_0_1 : S1x64.BroadcastsInDim S8x64 (![0, 1] : Fin 2 → Fin S8x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S8_S50000x1_S50000_n_0_0_1_wf : ScatterDims.WF S8 S50000x1 S50000 [] [0] [0] 1
  scatter_S8x128_S50000x1_S50000x128_1_0_0_1_wf : ScatterDims.WF S8x128 S50000x1 S50000x128 [1] [0] [0] 1
  dot_S8x128_S128x64_S8x64_1_0_0_1_n_n_wf : DotDims.WF S8x128 S128x64 S8x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S8_S50000x1_S50000_n_0_0_1 : ScatterDims S8 S50000x1 S50000 where
  updateWindowDims := []
  insertedWindowDims := [0]
  scatterDimsToOperandDims := [0]
  indexVectorDim := 1
  wf := scatter_S8_S50000x1_S50000_n_0_0_1_wf
def scatter_S8x128_S50000x1_S50000x128_1_0_0_1 : ScatterDims S8x128 S50000x1 S50000x128 where
  updateWindowDims := [1]
  insertedWindowDims := [0]
  scatterDimsToOperandDims := [0]
  indexVectorDim := 1
  wf := scatter_S8x128_S50000x1_S50000x128_1_0_0_1_wf
def dot_S8x128_S128x64_S8x64_1_0_0_1_n_n : DotDims S8x128 S128x64 S8x64 where
  lhsContracting := [1]
  rhsContracting := [0]
  lhsNonContracting := [0]
  rhsNonContracting := [1]
  lhsBatch := []
  rhsBatch := []
  wf := dot_S8x128_S128x64_S8x64_1_0_0_1_n_n_wf

class Facts : Prop extends Facts₀ where

variable [Facts]
-- ==== Proof.KernelRun.lean ====
/-
  The idealized kernel program run from launch to return, with every buffer named at the end.

  The program is eleven segments: stretches of host operations around two kernel regions. Each segment takes the
  core's unscoped buffers from one valuation to the next — a host stretch applies its operations in order, a region
  replaces its output array by what its grid points write back and leaves every other buffer alone — so the buffers
  at the return are a fold of these steps over the launch memory. Every weakly fair execution terminates, without a
  fault, and in the final memory every unscoped buffer of every core holds that fold's value at the buffer. The
  result array and the unchanged arguments are instances.
-/
import proofs.«125797_j72928544686321_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of every core
    ends at the value the fold of the segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The same run with the result array and the arguments read off: the result at the fold's value, each argument as
    launched. -/
theorem run_result : θ_run defs (onTc (τ := τ) (main (F := F))) ⟨m, fun _ => 0, ρ⟩ (fun r => ∀ c : Dev nD,
      r.2.mem ((c.tc : Thread nD τ).loc main_v55) = W11 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v55 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)
    (run_all m ρ)

end Cert.KernelIdeal.Whole

end
-- ==== Proof.GraphConvSpec.lean ====
/-
  The two dense maps of a two-layer graph convolution, entry by entry, over the extended reals.

  Node features are a 50000 × 128 array, a per-node scale is a 50000 × 1 column, a weight is 128 × 128 and a bias
  is a 1 × 128 row.

  * `scaledProduct x s w` is (diag(s) · x) · w: entry (p, q) is the sum over k of (x(p, k) · s(p)) · w(k, q).
  * `hiddenProduct a d b s w` is (diag(s) · relu(diag(d) · a + b)) · w: entry (p, q) is the sum over k of
    (max(a(p, k) · d(p) + b(k), 0) · s(p)) · w(k, q), the zero being the value of the all-zero float word.

  Both are written so that an entry depends on its own row of the features only, which is what lets a program
  compute them one block of rows at a time.
-/
import Idealize.ShloMosaic.PureOps.Ideal
import Idealize.ShloMosaic.Lib.ValueIdx

noncomputable section

open scoped BigOperators

namespace Cert.GraphConv

open Idealize.ShloMosaic Idealize.ShloMosaic.ValueIdx

/-- Node features: 50000 nodes, 128 lanes. -/
abbrev Feat : Shape := ⟨2, ![50000, 128]⟩
/-- A per-node scale, kept as a column. -/
abbrev Col : Shape := ⟨2, ![50000, 1]⟩
/-- A square weight. -/
abbrev Sq : Shape := ⟨2, ![128, 128]⟩
/-- A bias, kept as a row. -/
abbrev Row : Shape := ⟨2, ![1, 128]⟩

/-- The node (row) of a feature index. -/
def node (i : Feat.Idx) : Fin 50000 := ⟨(i 0).val, (i 0).isLt⟩
/-- The lane (column) of a feature index. -/
def lane (i : Feat.Idx) : Fin 128 := ⟨(i 1).val, (i 1).isLt⟩

theorem node_ix2 (p : Fin 50000) (q : Fin 128) : node (ix2 p q) = p := rfl
theorem lane_ix2 (p : Fin 50000) (q : Fin 128) : lane (ix2 p q) = q := rfl

/-- (diag(s) · x) · w at an entry. -/
def scaledProduct (x : Feat.Idx → EReal) (s : Col.Idx → EReal) (w : Sq.Idx → EReal) : Feat.Idx → EReal :=
  fun i => ∑ k : Fin 128, (x (ix2 (node i) k) * s (ix2 (node i) 0)) * w (ix2 k (lane i))

theorem scaledProduct_apply (x : Feat.Idx → EReal) (s : Col.Idx → EReal) (w : Sq.Idx → EReal) (p : Fin 50000) (q : Fin 128) :
    scaledProduct x s w (ix2 p q) = ∑ k : Fin 128, (x (ix2 p k) * s (ix2 p 0)) * w (ix2 k q) := rfl

/-- (diag(s) · relu(diag(d) · a + b)) · w at an entry. -/
def hiddenProduct (a : Feat.Idx → EReal) (d : Col.Idx → EReal) (b : Row.Idx → EReal) (s : Col.Idx → EReal)
    (w : Sq.Idx → EReal) : Feat.Idx → EReal :=
  fun i => ∑ k : Fin 128,
    (max (a (ix2 (node i) k) * d (ix2 (node i) 0) + b (ix2 0 k)) (Ideal.ofBits .f32 0x00000000#32) * s (ix2 (node i) 0))
      * w (ix2 k (lane i))

theorem hiddenProduct_apply (a : Feat.Idx → EReal) (d : Col.Idx → EReal) (b : Row.Idx → EReal) (s : Col.Idx → EReal)
    (w : Sq.Idx → EReal) (p : Fin 50000) (q : Fin 128) :
    hiddenProduct a d b s w (ix2 p q) = ∑ k : Fin 128,
      (max (a (ix2 p k) * d (ix2 p 0) + b (ix2 0 k)) (Ideal.ofBits .f32 0x00000000#32) * s (ix2 p 0)) * w (ix2 k q) := rfl

end Cert.GraphConv

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.LibColumnInDim.lean ====
/-
  A per-row vector carried to a matrix by the host's `broadcast_in_dim`, read at an entry.

  * `broadcastInDim_column`: a length-a vector broadcast along axis 0 into an a×1 column holds, at (i, u), the
    vector's entry i.
  * `broadcastInDim_lanes`: an a×1 column broadcast along both axes into a×b holds, at (p, c), the column's entry
    of row p, whatever the lane c.
  * `shapeCast_column` and `shapeCast_eq_broadcastInDim`: a reshape of the vector to a×1 holds the same entries,
    so the reshape and the broadcast are one array.
-/
import Idealize.ShloMosaic.Lib.Pipeline.Value
import Idealize.ShloMosaic.Lib.ValueIdx

noncomputable section

namespace Cert.ColumnInDim

open Idealize.ShloMosaic Idealize.ShloMosaic.ValueIdx

variable {α : Type} {a b : Nat}

/-- The vector broadcast along axis 0 into an a×1 column, at (i, u): the vector at i. -/
theorem broadcastInDim_column (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) :=
  broadcastInDim_apply _ h x (ix2 i u) (ix1 i) (fun ax => match ax with
    | ⟨0, _⟩ => by
      show i.val = if a = 1 then 0 else i.val
      split
      · have := i.isLt; omega
      · rfl)

/-- The column broadcast along both axes into a×b, at (p, c): the column at (p, 0). -/
theorem broadcastInDim_lanes (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => by
      show (0 : Nat) = if (1 : Nat) = 1 then 0 else c.val
      rw [if_pos rfl])

/-- The vector reshaped to an a×1 column, at (i, u): the vector at i. -/
theorem shapeCast_column (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- So the reshape and the broadcast are one array. -/
theorem shapeCast_eq_broadcastInDim (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [shapeCast_column, broadcastInDim_column]

end Cert.ColumnInDim

end
-- ==== Proof.LibRowInDim.lean ====
/-
  A 1×n row copied to every row of an R×n matrix by a host broadcast along both axes, read at an entry.

  `broadcast_in_dim` with dims = [0, 1] from 1×n to R×n copies along the operand's unit axis 0 and keeps axis 1
  (for n ≠ 1, where axis 1 is not itself a unit axis): entry (p, k) of the result is the row's entry (0, k).
-/
import Idealize.ShloMosaic.Lib.Pipeline.Value
import Idealize.ShloMosaic.Lib.ValueIdx

noncomputable section

namespace Cert.RowInDim

open Idealize.ShloMosaic Idealize.ShloMosaic.ValueIdx

variable {α : Type} {R n : Nat}

/-- The row broadcast along both axes into R×n, at (p, k): the row at (0, k). -/
theorem broadcastInDim_rows (hn : n ≠ 1) (v : (⟨2, ![1, n]⟩ : Shape).Idx → α)
    (h : (⟨2, ![1, n]⟩ : Shape).BroadcastsInDim ⟨2, ![R, n]⟩ (![0, 1] : Fin 2 → Fin 2)) (p : Fin R) (k : Fin n) :
    broadcastInDim ⟨2, ![R, n]⟩ ![0, 1] h v (ix2 p k) = v (ix2 0 k) :=
  broadcastInDim_apply _ h v (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

end Cert.RowInDim

end
-- ==== Proof.ReferenceModel.lean ====
/-
  The reference program's result as a composition of named maps, and its two dense products entry by entry.

  The reference is a two-layer graph convolution followed by a per-graph mean and a linear read-out:

    scale(e)      = rsqrt(max(1, number of edges whose endpoint array e names the node))          (`degreeScale`)
    dense(h, w)   = (h ⊙ scale(src)) · w                                                           (`dense`)
    aggregate(h)  = for each node, the sum over its incoming edges of h at the edge's source       (`aggregate`)
    normalized(a, b) = a ⊙ scale(dst) + b                                                           (`normalized`)
    h1 = relu(normalized(aggregate(dense(x, w1)), b1)),  h2 = normalized(aggregate(dense(h1, w2)), b2)
    result = (per-graph sum of h2 / max(1, per-graph node count)) · wl + bl                         (`readout`)

  `result_eq` says the reference run's result term is exactly this composition (the two sides are the same term
  once the names are opened), for any float values. `dense_eq` and `dense_relu_eq` read the two dense products at an entry: they are the
  `scaledProduct` and `hiddenProduct` of the specification — a host `dot_general` is the plain sum of products, the
  scale column broadcast along the lanes is the column's entry of the row, the bias row broadcast down the rows is the
  row's entry of the lane.
-/
import proofs.«125797_j72928544686321_1_alg».proof.Proof.Gen.ReferenceIdeal.Run
import proofs.«125797_j72928544686321_1_alg».proof.Proof.GraphConvSpec
import proofs.«125797_j72928544686321_1_alg».proof.Proof.LibPlainDot
import proofs.«125797_j72928544686321_1_alg».proof.Proof.LibColumnInDim
import proofs.«125797_j72928544686321_1_alg».proof.Proof.LibRowInDim
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.Model

open Cert.ReferenceIdeal Cert.ReferenceIdeal.Gen Cert.ReferenceIdeal.Value Cert.GraphConv
open Idealize.ShloMosaic Idealize.ShloMosaic.TcCoe Idealize.ShloMosaic.ValueIdx Idealize.SL.Sem

variable {F : FTy → Type} [FloatOps F]

/-- rsqrt(max(1, number of edges whose endpoint is the node)), per node. -/
def degreeScale (e : IVec S800000 32) : FVec F S50000 .f32 :=
  Host.rsqrt (maximumf (broadcastInDim S50000 ![] bcast_S_S50000 (id (constant S_ .f32 0x3F800000#32)))
    (Host.scatterAdd scatter_S50000_S800000x1_S800000_n_0_0_1
      (broadcastInDim S50000 ![] bcast_S_S50000 (constant S_ .f32 0x00000000#32))
      (broadcastInDim S800000x1 ![0] bcast_S800000_S800000x1_0 e)
      (broadcastInDim S800000 ![] bcast_S_S800000 (constant S_ .f32 0x3F800000#32))))

/-- A per-node vector as a column. -/
def column (v : FVec F S50000 .f32) : FVec F S50000x1 .f32 :=
  broadcastInDim S50000x1 ![0] bcast_S50000_S50000x1_0 v

/-- A column copied along the 128 lanes. -/
def lanes (col : FVec F S50000x1 .f32) : FVec F S50000x128 .f32 :=
  broadcastInDim S50000x128 ![0, 1] bcast_S50000x1_S50000x128_0_1 col

/-- A bias row copied down the 50000 rows. -/
def rows (row : FVec F S1x128 .f32) : FVec F S50000x128 .f32 :=
  broadcastInDim S50000x128 ![0, 1] bcast_S1x128_S50000x128_0_1 row

/-- A length-128 bias as a row. -/
def asRow (b : FVec F S128 .f32) : FVec F S1x128 .f32 :=
  broadcastInDim S1x128 ![1] bcast_S128_S1x128_1 b

/-- The all-zero feature array. -/
def zeros : FVec F S50000x128 .f32 :=
  broadcastInDim S50000x128 ![] bcast_S_S50000x128 (constant S_ .f32 0x00000000#32)

/-- Edge sources as gather start indices: a negative index counts from the end. -/
def wrapped (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Message passing: each edge carries the features of its source to its destination, where they are summed. -/
def aggregate (h : FVec F S50000x128 .f32) (src dst : IVec S800000 32) : FVec F S50000x128 .f32 :=
  Host.scatterAdd scatter_S50000x128_S800000x1_S800000x128_1_0_0_1 zeros
    (broadcastInDim S800000x1 ![0] bcast_S800000_S800000x1_0 dst)
    (Host.gather gather_S50000x128_S800000x1_S800000x128_1_0_n_n_0_1_1128 h (wrapped src))

/-- The features scaled by the source-degree factor, times the weight. -/
def dense (h : FVec F S50000x128 .f32) (src : IVec S800000 32) (w : FVec F S128x128 .f32) :
    FVec F S50000x128 .f32 :=
  Host.dotGeneral dot_S50000x128_S128x128_S50000x128_1_0_0_1_n_n none (mulf h (lanes (column (degreeScale src)))) w

/-- The aggregate scaled by the destination-degree factor, plus the bias. -/
def normalized (a : FVec F S50000x128 .f32) (dst : IVec S800000 32) (b : FVec F S128 .f32) :
    FVec F S50000x128 .f32 :=
  addf (mulf a (lanes (column (degreeScale dst)))) (rows (asRow b))

/-- The positive part. -/
def relu (h : FVec F S50000x128 .f32) : FVec F S50000x128 .f32 := maximumf h zeros

/-- Per-graph mean of the node features, then the linear read-out. -/
def readout (h : FVec F S50000x128 .f32) (gid : IVec S50000 32) (wl : FVec F S128x64 .f32)
    (bl : FVec F S64 .f32) : FVec F S8x64 .f32 :=
  addf (Host.dotGeneral dot_S8x128_S128x64_S8x64_1_0_0_1_n_n none
    (Host.divf
      (Host.scatterAdd scatter_S8x128_S50000x1_S50000x128_1_0_0_1
        (broadcastInDim S8x128 ![] bcast_S_S8x128 (constant S_ .f32 0x00000000#32))
        (broadcastInDim S50000x1 ![0] bcast_S50000_S50000x1_0 gid) h)
      (broadcastInDim S8x128 ![0, 1] bcast_S8x1_S8x128_0_1 (broadcastInDim S8x1 ![0] bcast_S8_S8x1_0
        (maximumf (broadcastInDim S8 ![] bcast_S_S8 (id (constant S_ .f32 0x3F800000#32)))
          (Host.scatterAdd scatter_S8_S50000x1_S50000_n_0_0_1
            (broadcastInDim S8 ![] bcast_S_S8 (constant S_ .f32 0x00000000#32))
            (broadcastInDim S50000x1 ![0] bcast_S50000_S50000x1_0 gid)
            (broadcastInDim S50000 ![] bcast_S_S50000 (constant S_ .f32 0x3F800000#32)))))))
    wl) (broadcastInDim S8x64 ![0, 1] bcast_S1x64_S8x64_0_1 (broadcastInDim S1x64 ![1] bcast_S64_S1x64_1 bl))

/-- The whole network. -/
def network (x : FVec F S50000x128 .f32) (w1 : FVec F S128x128 .f32) (b1 : FVec F S128 .f32)
    (w2 : FVec F S128x128 .f32) (b2 : FVec F S128 .f32) (wl : FVec F S128x64 .f32) (bl : FVec F S64 .f32)
    (src dst : IVec S800000 32) (gid : IVec S50000 32) : FVec F S8x64 .f32 :=
  readout (normalized (aggregate (dense (relu (normalized (aggregate (dense x src w1) src dst) dst b1)) src w2) src dst) dst b2)
    gid wl bl

set_option maxRecDepth 65536 in
/-- The reference run's result is the network of the launch contents of its arguments. -/
theorem result_eq (m : (ℓ : Loc nD τ sig) → Buf (Elt F) ℓ) (c : Dev nD) :
    res_main_v77 m c = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold res_main_v77 network readout normalized aggregate dense relu degreeScale column lanes rows asRow zeros wrapped
  rfl

/-- The first dense product at an entry. -/
theorem dense_eq (x : FVec Ideal S50000x128 .f32) (col : FVec Ideal S50000x1 .f32) (w : FVec Ideal S128x128 .f32) :
    Host.dotGeneral dot_S50000x128_S128x128_S50000x128_1_0_0_1_n_n none (mulf x (lanes col)) w = scaledProduct x col w := by
  funext i
  obtain ⟨p, q, rfl⟩ : ∃ (p : Fin 50000) (q : Fin 128), i = ix2 p q := ⟨i 0, i 1, eq_ix2 i⟩
  rw [scaledProduct_apply]
  refine (Cert.PlainDot.dotGeneral_apply _ rfl none .single _ _ p q).trans ?_
  refine Finset.sum_congr rfl fun k _ => ?_
  unfold lanes
  rw [mulf_apply, Cert.ColumnInDim.broadcastInDim_lanes]

/-- The second dense product, with the first layer's scale, bias and positive part folded in, at an entry. -/
theorem dense_relu_eq (a : FVec Ideal S50000x128 .f32) (d : FVec Ideal S50000x1 .f32) (row : FVec Ideal S1x128 .f32)
    (s : FVec Ideal S50000x1 .f32) (w : FVec Ideal S128x128 .f32) :
    Host.dotGeneral dot_S50000x128_S128x128_S50000x128_1_0_0_1_n_n none
        (mulf (relu (addf (mulf a (lanes d)) (rows row))) (lanes s)) w
      = hiddenProduct a d row s w := by
  funext i
  obtain ⟨p, q, rfl⟩ : ∃ (p : Fin 50000) (q : Fin 128), i = ix2 p q := ⟨i 0, i 1, eq_ix2 i⟩
  rw [hiddenProduct_apply]
  refine (Cert.PlainDot.dotGeneral_apply _ rfl none .single _ _ p q).trans ?_
  refine Finset.sum_congr rfl fun k _ => ?_
  unfold relu lanes rows zeros
  rw [mulf_apply, maximumf_apply, addf_apply, mulf_apply, Cert.ColumnInDim.broadcastInDim_lanes,
    Cert.ColumnInDim.broadcastInDim_lanes, Cert.RowInDim.broadcastInDim_rows (show (128 : ℕ) ≠ 1 by decide)]
  rfl

/-- The first dense product of the reference, by its name. -/
theorem dense_scaled (x : FVec Ideal S50000x128 .f32) (src : IVec S800000 32) (w : FVec Ideal S128x128 .f32) :
    dense x src w = scaledProduct x (column (degreeScale (F := Ideal) src)) w := dense_eq _ _ _

/-- The second dense product of the reference applied to the first layer's output, by its names. -/
theorem dense_hidden (a : FVec Ideal S50000x128 .f32) (src dst : IVec S800000 32) (b : FVec Ideal S128 .f32)
    (w : FVec Ideal S128x128 .f32) :
    dense (relu (normalized a dst b)) src w
      = hiddenProduct a (column (degreeScale (F := Ideal) dst)) (asRow b) (column (degreeScale (F := Ideal) src)) w :=
  dense_relu_eq _ _ _ _ _

end Cert.ReferenceIdeal.Model

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.Region0Value.lean ====
/-
  The first kernel region: what its output array holds when the region ends.

  The region walks 25 blocks of 2000 rows. At block t it reads rows [2000·t, 2000·t + 2000) of the features x and of
  the scale column s, the whole weight w, and writes rows [2000·t, 2000·t + 2000) of the output with
  (x_block ⊙ s_block) · w_block — the scale copied along the lanes, the product taken by the matrix unit from a zero
  accumulator, the roundings to bf16 on the way in being the identity on extended reals. An entry of that block
  product depends on its own row only, so block t of the output is block t of the whole-array `scaledProduct x s w`;
  the 25 blocks tile the array, hence the array ends at `scaledProduct x s w` of the arrays as the region found them.
-/
import proofs.«125797_j72928544686321_1_alg».proof.Proof.Gen.KernelIdeal.Frame
import proofs.«125797_j72928544686321_1_alg».proof.Proof.GraphConvSpec
import proofs.«125797_j72928544686321_1_alg».proof.Proof.LibPlainDot
import proofs.«125797_j72928544686321_1_alg».proof.Proof.LibKeepdims
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer1

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

/-- The body's value at an entry of its block: the row of the features, scaled by the row's factor, against the
    weight's column. -/
theorem payload_apply (x0 : Vec Ideal S2000x128 .f32) (x1 : Vec Ideal S2000x1 .f32) (x2 : Vec Ideal S128x128 .f32)
    (p : Fin 2000) (q : Fin 128) :
    k0_pay1 (F := Ideal) x0 x1 x2 (ix2 p q) = ∑ k : Fin 128, (x0 (ix2 p k) * x1 (ix2 p 0)) * x2 (ix2 k q) := by
  unfold k0_pay1
  refine (Cert.PlainDot.matmul_zero_apply _ rfl none _ _ p q).trans ?_
  refine Finset.sum_congr rfl fun k _ => ?_
  rw [truncf_apply, truncf_apply, mulf_apply, Idealize.ShloMosaic.Keepdims.broadcastTo_a1_ab_apply, shapeCast_self]

theorem origin : (![0, 0] : Fin 2 → Nat) = fun _ => 0 := funext fun a => by fin_cases a <;> rfl

/-- The block indices of the four windows at every grid point: the features, the scale and the output move
    together down the rows; the weight stays. -/
theorem block_indices : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What grid point t writes back is block t of the whole-array function of the arrays the region found. -/
theorem flushed_eq (c : Dev nD) (t : Fin cfg0.N) :
    (dat0 V c).flushed 3 t
      = ((cfg0.win 3).blk t).view.read (Elt Ideal) (scaledProduct (V c main_arg0) (V c main_v9) (V c main_arg1)) := by
  show (cfg0.win 3).cut (grid0.coords t) ((dat0 V c).after 3 t) = _
  rw [after0_3]
  unfold out0_3
  rw [View.canon_unit_zero origin]
  simp only [View.ld_unit_zero (S := S2000x128) origin, View.ld_unit_zero (S := S2000x1) origin,
    View.ld_unit_zero (S := S128x128) origin]
  obtain ⟨e00, e01, e10, e11, e20, e21, e30, e31⟩ := block_indices t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (ix2 p q)
    = scaledProduct (V c main_arg0) (V c main_v9) (V c main_arg1) (((cfg0.win 3).blk t).view.emb (ix2 p q))
  rw [payload_apply]
  have hrow : (((cfg0.win 3).blk t).view.emb (ix2 p q) (0 : Fin 2)).val = win0_3.index t (0 : Fin 2) * 2000 + 1 * p.val := rfl
  have hlane : (((cfg0.win 3).blk t).view.emb (ix2 p q) (1 : Fin 2)).val = win0_3.index t (1 : Fin 2) * 128 + 1 * q.val := rfl
  refine Finset.sum_congr rfl fun k _ => ?_
  have h0 : iblk0 V c 0 t (ix2 p k) = V c main_arg0 (ix2 (node (((cfg0.win 3).blk t).view.emb (ix2 p q))) k) := by
    show V c main_arg0 (((cfg0.win 0).blk t).view.emb (ix2 p k)) = _
    refine congrArg (V c main_arg0) ?_
    funext a; apply Fin.ext
    match a with
    | ⟨0, _⟩ =>
      show win0_0.index t (0 : Fin 2) * 2000 + 1 * p.val = (((cfg0.win 3).blk t).view.emb (ix2 p q) (0 : Fin 2)).val
      rw [hrow, e00]
    | ⟨1, _⟩ =>
      show win0_0.index t (1 : Fin 2) * 128 + 1 * k.val = k.val
      rw [e01]; omega
  have h1 : iblk0 V c 1 t (ix2 p 0) = V c main_v9 (ix2 (node (((cfg0.win 3).blk t).view.emb (ix2 p q))) 0) := by
    show V c main_v9 (((cfg0.win 1).blk t).view.emb (ix2 p 0)) = _
    refine congrArg (V c main_v9) ?_
    funext a; apply Fin.ext
    match a with
    | ⟨0, _⟩ =>
      show win0_1.index t (0 : Fin 2) * 2000 + 1 * p.val = (((cfg0.win 3).blk t).view.emb (ix2 p q) (0 : Fin 2)).val
      rw [hrow, e10]
    | ⟨1, _⟩ =>
      show win0_1.index t (1 : Fin 2) * 1 + 1 * 0 = 0
      rw [e11]
  have h2 : iblk0 V c 2 t (ix2 k q) = V c main_arg1 (ix2 k (lane (((cfg0.win 3).blk t).view.emb (ix2 p q)))) := by
    show V c main_arg1 (((cfg0.win 2).blk t).view.emb (ix2 k q)) = _
    refine congrArg (V c main_arg1) ?_
    funext a; apply Fin.ext
    match a with
    | ⟨0, _⟩ =>
      show win0_2.index t (0 : Fin 2) * 128 + 1 * k.val = k.val
      rw [e20]; omega
    | ⟨1, _⟩ =>
      show win0_2.index t (1 : Fin 2) * 128 + 1 * q.val = (((cfg0.win 3).blk t).view.emb (ix2 p q) (1 : Fin 2)).val
      rw [hlane, e21, e31]
  rw [h0, h1, h2]

/-- An index of the output array lies in point t's block iff each coordinate lies in the block's range. -/
theorem mem_block (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v13).slice (win0_3.rect t)).set ↔ _
  rw [View.set_slice_whole, Rect.mem_set_unit]
  exact Iff.rfl

/-- Every index of the output array is in the block of the point that owns its row. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 25 := N_0
  let t : Fin cfg0.N := ⟨(i 0).val / 2000, by show (i 0).val / 2000 < grid0.N; omega⟩
  obtain ⟨-, -, -, -, -, -, e30, e31⟩ := block_indices t
  have ht : t.val = (i 0).val / 2000 := rfl
  refine ⟨t, flush0_3 t, ?_⟩
  rw [mem_block]
  intro a
  match a with
  | ⟨0, _⟩ =>
    show win0_3.index t (0 : Fin 2) * 2000 ≤ (i 0).val ∧ (i 0).val < win0_3.index t (0 : Fin 2) * 2000 + 2000
    rw [e30, ht]; omega
  | ⟨1, _⟩ =>
    show win0_3.index t (1 : Fin 2) * 128 ≤ (i 1).val ∧ (i 1).val < win0_3.index t (1 : Fin 2) * 128 + 128
    rw [e31]; omega

/-- The output array when the region ends: the scaled product of the arrays the region found. -/
theorem output_eq (c : Dev nD) :
    (dat0 V c).arrAt 3 cfg0.N = scaledProduct (V c main_arg0) (V c main_v9) (V c main_arg1) :=
  (dat0 V c).arrAt_eq_of_cover 3 _ (fun t _ => flushed_eq V c t) covered

end

end Cert.KernelIdeal.Layer1

end
-- ==== Proof.LibRowVector.lean ====
/-
  A length-n vector laid out as a 1×n row, and a 1×n row copied to every row of an R×n matrix, read at an entry.

  * `broadcastTo_row`: a 1×n row broadcast to R×n holds, at (p, k), the row's entry (0, k) — for n ≠ 1
    (a unit axis of the operand is the one that is copied; a length-1 last axis would be copied too).
  * `shapeCast_row`: a length-n vector reshaped to a 1×n row holds, at (0, k), the vector's entry k: both sit at
    row-major position k.
-/
import Idealize.ShloMosaic.Lib.Pipeline.Value
import Idealize.ShloMosaic.Lib.ValueIdx

noncomputable section

namespace Cert.RowVector

open Idealize.ShloMosaic Idealize.ShloMosaic.ValueIdx

variable {α : Type} {R n : Nat}

/-- A 1×n row copied to every row of an R×n matrix, at (p, k): the row at (0, k). -/
theorem broadcastTo_row (hn : n ≠ 1) (v : (⟨2, ![1, n]⟩ : Shape).Idx → α)
    (h : (⟨2, ![1, n]⟩ : Shape).Broadcasts ⟨2, ![R, n]⟩) (p : Fin R) (k : Fin n) :
    broadcastTo ⟨2, ![R, n]⟩ v h (ix2 p k) = v (ix2 0 k) :=
  broadcastTo_apply v h (ix2 p k) (ix2 0 k) (fun a => match a with
    | ⟨0, _⟩ => by
      show (0 : Nat) = if (1 : Nat) = 1 then 0 else _
      rw [if_pos rfl]
    | ⟨1, _⟩ => by
      show k.val = if n = 1 then 0 else k.val
      rw [if_neg hn])

/-- A length-n vector reshaped to a 1×n row, at (0, k): the vector at k. -/
theorem shapeCast_row (x : (⟨1, ![n]⟩ : Shape).Idx → α)
    (h : (⟨1, ![n]⟩ : Shape).ShapeCasts ⟨2, ![1, n]⟩) (k : Fin n) :
    shapeCast ⟨2, ![1, n]⟩ x h (ix2 0 k) = x (ix1 k) :=
  shapeCast_apply x h (ix2 0 k) (ix1 k) (by
    rw [Shape.rowMajor_val_two, Shape.rowMajor_val_one]
    show k.val = 0 * n + k.val
    omega)

end Cert.RowVector

end
-- ==== Proof.Region1Value.lean ====
/-
  The second kernel region: what its output array holds when the region ends.

  The region walks 25 blocks of 2000 rows. At block t it reads rows [2000·t, 2000·t + 2000) of the aggregate a, of the
  destination scale column d and of the source scale column s, the whole bias row b and the whole weight w, and writes
  rows [2000·t, 2000·t + 2000) of the output with (max(a_block ⊙ d_block + b, 0) ⊙ s_block) · w — the columns copied along
  the lanes, the bias row copied down the rows, the product taken by the matrix unit from a zero accumulator, the
  roundings to bf16 on the way in being the identity on extended reals. An entry depends on its own row only, so block t
  of the output is block t of the whole-array `hiddenProduct a d b s w`; the 25 blocks tile the array, hence the array
  ends at `hiddenProduct a d b s w` of the arrays as the region found them.
-/
import proofs.«125797_j72928544686321_1_alg».proof.Proof.Gen.KernelIdeal.Frame
import proofs.«125797_j72928544686321_1_alg».proof.Proof.GraphConvSpec
import proofs.«125797_j72928544686321_1_alg».proof.Proof.LibPlainDot
import proofs.«125797_j72928544686321_1_alg».proof.Proof.LibKeepdims
import proofs.«125797_j72928544686321_1_alg».proof.Proof.LibRowVector
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer2

open Cert.KernelIdeal Cert.KernelIdeal.Gen Cert.GraphConv
open Idealize.ShloMosaic Idealize.ShloMosaic.TcCoe Idealize.ShloMosaic.ValueIdx Idealize.SL.Sem
open Idealize.ShloMosaic.Pipeline (Dat Cfg Window)

/-- The body's value at an entry of its block: the row of the aggregate scaled, shifted by the bias, cut at zero,
    scaled again, against the weight's column. -/
theorem payload_apply (v0 : Vec Ideal S2000x128 .f32) (v2 : Vec Ideal S2000x1 .f32) (v6 : Vec Ideal S1x128 .f32)
    (v12 : Vec Ideal S2000x1 .f32) (v17 : Vec Ideal S128x128 .f32) (p : Fin 2000) (q : Fin 128) :
    k1_pay1 (F := Ideal) v0 v2 v6 v12 v17 (ix2 p q) = ∑ k : Fin 128,
      (max (v0 (ix2 p k) * v2 (ix2 p 0) + v6 (ix2 0 k)) (Ideal.ofBits .f32 0x00000000#32) * v12 (ix2 p 0)) * v17 (ix2 k q) := by
  unfold k1_pay1
  refine (Cert.PlainDot.matmul_zero_apply _ rfl none _ _ p q).trans ?_
  refine Finset.sum_congr rfl fun k _ => ?_
  simp only [truncf_apply, mulf_apply, maximumf_apply, addf_apply, broadcast_apply,
    Idealize.ShloMosaic.Keepdims.broadcastTo_a1_ab_apply, Cert.RowVector.broadcastTo_row (show (128 : ℕ) ≠ 1 by decide),
    shapeCast_self]
  rfl

theorem origin : (![0, 0] : Fin 2 → Nat) = fun _ => 0 := funext fun a => by fin_cases a <;> rfl

/-- The block indices of the six windows at every grid point: the aggregate, the two scale columns and the output
    move together down the rows; the bias row and the weight stay. -/
theorem block_indices : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = win1_5.index t (0 : Fin 2) ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

/-- What grid point t writes back is block t of the whole-array function of the arrays the region found. -/
theorem flushed_eq (c : Dev nD) (t : Fin cfg1.N) :
    (dat1 V c).flushed 5 t
      = ((cfg1.win 5).blk t).view.read (Elt Ideal)
          (hiddenProduct (V c main_v23) (V c main_v12) (V c main_v24) (V c main_v9) (V c main_arg3)) := by
  show (cfg1.win 5).cut (grid1.coords t) ((dat1 V c).after 5 t) = _
  rw [after1_5]
  unfold out1_5
  rw [View.canon_unit_zero origin]
  simp only [View.ld_unit_zero (S := S2000x128) origin, View.ld_unit_zero (S := S2000x1) origin,
    View.ld_unit_zero (S := S1x128) origin, View.ld_unit_zero (S := S128x128) origin]
  obtain ⟨e00, e01, e10, e11, e20, e21, e30, e31, e40, e41, e50, e51⟩ := block_indices t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = hiddenProduct (V c main_v23) (V c main_v12) (V c main_v24) (V c main_v9) (V c main_arg3)
        (((cfg1.win 5).blk t).view.emb (ix2 p q))
  rw [payload_apply]
  have hrow : (((cfg1.win 5).blk t).view.emb (ix2 p q) (0 : Fin 2)).val = win1_5.index t (0 : Fin 2) * 2000 + 1 * p.val := rfl
  have hlane : (((cfg1.win 5).blk t).view.emb (ix2 p q) (1 : Fin 2)).val = win1_5.index t (1 : Fin 2) * 128 + 1 * q.val := rfl
  refine Finset.sum_congr rfl fun k _ => ?_
  have h0 : iblk1 V c 0 t (ix2 p k) = V c main_v23 (ix2 (node (((cfg1.win 5).blk t).view.emb (ix2 p q))) k) := by
    show V c main_v23 (((cfg1.win 0).blk t).view.emb (ix2 p k)) = _
    refine congrArg (V c main_v23) ?_
    funext a; apply Fin.ext
    match a with
    | ⟨0, _⟩ =>
      show win1_0.index t (0 : Fin 2) * 2000 + 1 * p.val = (((cfg1.win 5).blk t).view.emb (ix2 p q) (0 : Fin 2)).val
      rw [hrow, e00]
    | ⟨1, _⟩ =>
      show win1_0.index t (1 : Fin 2) * 128 + 1 * k.val = k.val
      rw [e01]; omega
  have h1 : iblk1 V c 1 t (ix2 p 0) = V c main_v12 (ix2 (node (((cfg1.win 5).blk t).view.emb (ix2 p q))) 0) := by
    show V c main_v12 (((cfg1.win 1).blk t).view.emb (ix2 p 0)) = _
    refine congrArg (V c main_v12) ?_
    funext a; apply Fin.ext
    match a with
    | ⟨0, _⟩ =>
      show win1_1.index t (0 : Fin 2) * 2000 + 1 * p.val = (((cfg1.win 5).blk t).view.emb (ix2 p q) (0 : Fin 2)).val
      rw [hrow, e10]
    | ⟨1, _⟩ =>
      show win1_1.index t (1 : Fin 2) * 1 + 1 * 0 = 0
      rw [e11]
  have h2 : iblk1 V c 2 t (ix2 0 k) = V c main_v24 (ix2 0 k) := by
    show V c main_v24 (((cfg1.win 2).blk t).view.emb (ix2 0 k)) = _
    refine congrArg (V c main_v24) ?_
    funext a; apply Fin.ext
    match a with
    | ⟨0, _⟩ =>
      show win1_2.index t (0 : Fin 2) * 1 + 1 * 0 = 0
      rw [e20]
    | ⟨1, _⟩ =>
      show win1_2.index t (1 : Fin 2) * 128 + 1 * k.val = k.val
      rw [e21]; omega
  have h3 : iblk1 V c 3 t (ix2 p 0) = V c main_v9 (ix2 (node (((cfg1.win 5).blk t).view.emb (ix2 p q))) 0) := by
    show V c main_v9 (((cfg1.win 3).blk t).view.emb (ix2 p 0)) = _
    refine congrArg (V c main_v9) ?_
    funext a; apply Fin.ext
    match a with
    | ⟨0, _⟩ =>
      show win1_3.index t (0 : Fin 2) * 2000 + 1 * p.val = (((cfg1.win 5).blk t).view.emb (ix2 p q) (0 : Fin 2)).val
      rw [hrow, e30]
    | ⟨1, _⟩ =>
      show win1_3.index t (1 : Fin 2) * 1 + 1 * 0 = 0
      rw [e31]
  have h4 : iblk1 V c 4 t (ix2 k q) = V c main_arg3 (ix2 k (lane (((cfg1.win 5).blk t).view.emb (ix2 p q)))) := by
    show V c main_arg3 (((cfg1.win 4).blk t).view.emb (ix2 k q)) = _
    refine congrArg (V c main_arg3) ?_
    funext a; apply Fin.ext
    match a with
    | ⟨0, _⟩ =>
      show win1_4.index t (0 : Fin 2) * 128 + 1 * k.val = k.val
      rw [e40]; omega
    | ⟨1, _⟩ =>
      show win1_4.index t (1 : Fin 2) * 128 + 1 * q.val = (((cfg1.win 5).blk t).view.emb (ix2 p q) (1 : Fin 2)).val
      rw [hlane, e41, e51]
  rw [h0, h1, h2, h3, h4]

/-- An index of the output array lies in point t's block iff each coordinate lies in the block's range. -/
theorem mem_block (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v25).slice (win1_5.rect t)).set ↔ _
  rw [View.set_slice_whole, Rect.mem_set_unit]
  exact Iff.rfl

/-- Every index of the output array is in the block of the point that owns its row. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 25 := N_1
  let t : Fin cfg1.N := ⟨(i 0).val / 2000, by show (i 0).val / 2000 < grid1.N; omega⟩
  obtain ⟨-, -, -, -, -, -, -, -, -, -, e50, e51⟩ := block_indices t
  have ht : t.val = (i 0).val / 2000 := rfl
  refine ⟨t, flush1_5 t, ?_⟩
  rw [mem_block]
  intro a
  match a with
  | ⟨0, _⟩ =>
    show win1_5.index t (0 : Fin 2) * 2000 ≤ (i 0).val ∧ (i 0).val < win1_5.index t (0 : Fin 2) * 2000 + 2000
    rw [e50, ht]; omega
  | ⟨1, _⟩ =>
    show win1_5.index t (1 : Fin 2) * 128 ≤ (i 1).val ∧ (i 1).val < win1_5.index t (1 : Fin 2) * 128 + 128
    rw [e51]; omega

/-- The output array when the region ends: the hidden product of the arrays the region found. -/
theorem output_eq (c : Dev nD) :
    (dat1 V c).arrAt 5 cfg1.N
      = hiddenProduct (V c main_v23) (V c main_v12) (V c main_v24) (V c main_v9) (V c main_arg3) :=
  (dat1 V c).arrAt_eq_of_cover 5 _ (fun t _ => flushed_eq V c t) covered

end

end Cert.KernelIdeal.Layer2

end
-- ==== Proof.LibRowOfVector.lean ====
/-
  Two spellings of a length-n vector laid out as a 1×n row.

  A reshape of the vector to 1×n and a broadcast of it along axis 1 into a 1×n array are the same array: both hold,
  at (0, k), the vector's entry k (for n ≠ 1, where the broadcast does not copy along the vector's own axis).
-/
import Idealize.ShloMosaic.Lib.Pipeline.Value
import Idealize.ShloMosaic.Lib.ValueIdx

noncomputable section

namespace Cert.RowOfVector

open Idealize.ShloMosaic Idealize.ShloMosaic.ValueIdx

variable {α : Type} {n : Nat}

/-- The vector broadcast along axis 1 into a 1×n row, at (0, k): the vector at k. -/
theorem broadcastInDim_row (hn : n ≠ 1) (x : (⟨1, ![n]⟩ : Shape).Idx → α)
    (h : (⟨1, ![n]⟩ : Shape).BroadcastsInDim ⟨2, ![1, n]⟩ (![1] : Fin 1 → Fin 2)) (z : Fin 1) (k : Fin n) :
    broadcastInDim ⟨2, ![1, n]⟩ ![1] h x (ix2 z k) = x (ix1 k) :=
  broadcastInDim_apply _ h x (ix2 z k) (ix1 k) (fun a => match a with
    | ⟨0, _⟩ => by
      show k.val = if n = 1 then 0 else k.val
      rw [if_neg hn])

/-- The vector reshaped to a 1×n row, at (0, k): the vector at k. -/
theorem shapeCast_row (x : (⟨1, ![n]⟩ : Shape).Idx → α)
    (h : (⟨1, ![n]⟩ : Shape).ShapeCasts ⟨2, ![1, n]⟩) (z : Fin 1) (k : Fin n) :
    shapeCast ⟨2, ![1, n]⟩ x h (ix2 z k) = x (ix1 k) :=
  shapeCast_apply x h (ix2 z k) (ix1 k) (by
    rw [Shape.rowMajor_val_two, Shape.rowMajor_val_one]
    show k.val = z.val * n + k.val
    have hz : z.val = 0 := by have := z.isLt; omega
    rw [hz]; omega)

/-- So the reshape and the broadcast are one array. -/
theorem shapeCast_eq_broadcastInDim (hn : n ≠ 1) (x : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ ![1] h' x := by
  funext j
  obtain ⟨z, k, rfl⟩ : ∃ (z : Fin 1) (k : Fin n), j = ix2 z k := ⟨j 0, j 1, eq_ix2 j⟩
  rw [shapeCast_row, broadcastInDim_row hn]

end Cert.RowOfVector

end
-- ==== Proof.KernelStages.lean ====
/-
  The idealized kernel program's buffers, boundary by boundary, and its result as the reference's network.

  The run's fold (see the run of the whole program) is read here one segment at a time.

  * Before the first region the host computes the two degree scales — rsqrt(max(1, degree)) from a scatter-add of ones
    over the edges' sources and over their destinations — and lays each out as a 50000 × 1 column by a reshape; the
    arguments are untouched.
  * The first region leaves (x ⊙ scale(src)) · w1 in its output array and nothing else changed.
  * Between the regions the host gathers that array's rows at the edges' sources and scatter-adds them at the edges'
    destinations, and lays the first bias out as a row by a reshape.
  * The second region leaves (relu(a ⊙ scale(dst) + b1) ⊙ scale(src)) · w2 in its output array.
  * After it the host aggregates again, scales, adds the second bias, takes the per-graph mean and the read-out.

  A reshape of a vector to a column, or to a row, holds the same entries as the host broadcast the reference uses for
  the same layout, so each piece is the reference's own map of the same arguments, and the result buffer ends at the
  reference's `network` of the launch contents of the arguments. The host-only steps are read for any float values;
  the two regions' arrays, whose value is a sum of products, at the extended reals.
-/
import proofs.«125797_j72928544686321_1_alg».proof.Proof.Gen.KernelIdeal.Frame
import proofs.«125797_j72928544686321_1_alg».proof.Proof.ReferenceModel
import proofs.«125797_j72928544686321_1_alg».proof.Proof.Region0Value
import proofs.«125797_j72928544686321_1_alg».proof.Proof.Region1Value
import proofs.«125797_j72928544686321_1_alg».proof.Proof.LibColumnInDim
import proofs.«125797_j72928544686321_1_alg».proof.Proof.LibRowOfVector
import Idealize.ShloMosaic.Lib.StableHlo.Run
import Idealize.ShloMosaic.PureOps.Ideal

set_option maxRecDepth 16384

noncomputable section

namespace Cert.KernelIdeal.Stages

open Cert.KernelIdeal Cert.KernelIdeal.Gen Cert.ReferenceIdeal.Model Cert.GraphConv
open Idealize.ShloMosaic Idealize.ShloMosaic.TcCoe Idealize.SL.Sem Idealize.ShloMosaic.StableHlo

/-! ## The host segments and the regions' untouched buffers, for any float values -/

section AnyFloat

variable {F : FTy → Type} [FloatOps F]
variable (m : (ℓ : Loc nD τ sig) → Buf (Elt F) ℓ) (ρ : Dev nD → PrngReg) (c : Dev nD)

/-! ### Before the first region -/

theorem head_arg0 : W5 m ρ c (Proc.devRef .tc main_arg0) = (m ((c.tc : Thread nD τ).loc main_arg0)) := by
  dsimp only [W5, W4, W3, W2, W1, hostOps0, hostOps0_1, hostOps0_2, hostOps0_3, hostOps0_4]
  after_results_simp <;> rfl

theorem head_arg1 : W5 m ρ c (Proc.devRef .tc main_arg1) = (m ((c.tc : Thread nD τ).loc main_arg1)) := by
  dsimp only [W5, W4, W3, W2, W1, hostOps0, hostOps0_1, hostOps0_2, hostOps0_3, hostOps0_4]
  after_results_simp <;> rfl

theorem head_arg2 : W5 m ρ c (Proc.devRef .tc main_arg2) = (m ((c.tc : Thread nD τ).loc main_arg2)) := by
  dsimp only [W5, W4, W3, W2, W1, hostOps0, hostOps0_1, hostOps0_2, hostOps0_3, hostOps0_4]
  after_results_simp <;> rfl

theorem head_arg3 : W5 m ρ c (Proc.devRef .tc main_arg3) = (m ((c.tc : Thread nD τ).loc main_arg3)) := by
  dsimp only [W5, W4, W3, W2, W1, hostOps0, hostOps0_1, hostOps0_2, hostOps0_3, hostOps0_4]
  after_results_simp <;> rfl

theorem head_arg4 : W5 m ρ c (Proc.devRef .tc main_arg4) = (m ((c.tc : Thread nD τ).loc main_arg4)) := by
  dsimp only [W5, W4, W3, W2, W1, hostOps0, hostOps0_1, hostOps0_2, hostOps0_3, hostOps0_4]
  after_results_simp <;> rfl

theorem head_arg5 : W5 m ρ c (Proc.devRef .tc main_arg5) = (m ((c.tc : Thread nD τ).loc main_arg5)) := by
  dsimp only [W5, W4, W3, W2, W1, hostOps0, hostOps0_1, hostOps0_2, hostOps0_3, hostOps0_4]
  after_results_simp <;> rfl

theorem head_arg6 : W5 m ρ c (Proc.devRef .tc main_arg6) = (m ((c.tc : Thread nD τ).loc main_arg6)) := by
  dsimp only [W5, W4, W3, W2, W1, hostOps0, hostOps0_1, hostOps0_2, hostOps0_3, hostOps0_4]
  after_results_simp <;> rfl

theorem head_arg7 : W5 m ρ c (Proc.devRef .tc main_arg7) = (m ((c.tc : Thread nD τ).loc main_arg7)) := by
  dsimp only [W5, W4, W3, W2, W1, hostOps0, hostOps0_1, hostOps0_2, hostOps0_3, hostOps0_4]
  after_results_simp <;> rfl

theorem head_arg8 : W5 m ρ c (Proc.devRef .tc main_arg8) = (m ((c.tc : Thread nD τ).loc main_arg8)) := by
  dsimp only [W5, W4, W3, W2, W1, hostOps0, hostOps0_1, hostOps0_2, hostOps0_3, hostOps0_4]
  after_results_simp <;> rfl

theorem head_arg9 : W5 m ρ c (Proc.devRef .tc main_arg9) = (m ((c.tc : Thread nD τ).loc main_arg9)) := by
  dsimp only [W5, W4, W3, W2, W1, hostOps0, hostOps0_1, hostOps0_2, hostOps0_3, hostOps0_4]
  after_results_simp <;> rfl

/-- The source-degree scale, reshaped to a column. -/
theorem head_src : W5 m ρ c (Proc.devRef .tc main_v9)
    = shapeCast S50000x1 (degreeScale (m ((c.tc : Thread nD τ).loc main_arg7))) shapeCasts_S50000_S50000x1 := by
  dsimp only [W5, W4, W3, W2, W1, hostOps0, hostOps0_1, hostOps0_2, hostOps0_3, hostOps0_4]
  after_results_simp <;> rfl

/-- The destination-degree scale, reshaped to a column. -/
theorem head_dst : W5 m ρ c (Proc.devRef .tc main_v12)
    = shapeCast S50000x1 (degreeScale (m ((c.tc : Thread nD τ).loc main_arg8))) shapeCasts_S50000_S50000x1 := by
  dsimp only [W5, W4, W3, W2, W1, hostOps0, hostOps0_1, hostOps0_2, hostOps0_3, hostOps0_4]
  after_results_simp <;> rfl

/-! ### Across the first region: only its output array changes -/

theorem exit0_main_arg2 : W6 m ρ c (Proc.devRef .tc main_arg2) = W5 m ρ c (Proc.devRef .tc main_arg2) := W6_of_ne m ρ c main_arg2 (by decide)
theorem exit0_main_arg3 : W6 m ρ c (Proc.devRef .tc main_arg3) = W5 m ρ c (Proc.devRef .tc main_arg3) := W6_of_ne m ρ c main_arg3 (by decide)
theorem exit0_main_arg4 : W6 m ρ c (Proc.devRef .tc main_arg4) = W5 m ρ c (Proc.devRef .tc main_arg4) := W6_of_ne m ρ c main_arg4 (by decide)
theorem exit0_main_arg5 : W6 m ρ c (Proc.devRef .tc main_arg5) = W5 m ρ c (Proc.devRef .tc main_arg5) := W6_of_ne m ρ c main_arg5 (by decide)
theorem exit0_main_arg6 : W6 m ρ c (Proc.devRef .tc main_arg6) = W5 m ρ c (Proc.devRef .tc main_arg6) := W6_of_ne m ρ c main_arg6 (by decide)
theorem exit0_main_arg7 : W6 m ρ c (Proc.devRef .tc main_arg7) = W5 m ρ c (Proc.devRef .tc main_arg7) := W6_of_ne m ρ c main_arg7 (by decide)
theorem exit0_main_arg8 : W6 m ρ c (Proc.devRef .tc main_arg8) = W5 m ρ c (Proc.devRef .tc main_arg8) := W6_of_ne m ρ c main_arg8 (by decide)
theorem exit0_main_arg9 : W6 m ρ c (Proc.devRef .tc main_arg9) = W5 m ρ c (Proc.devRef .tc main_arg9) := W6_of_ne m ρ c main_arg9 (by decide)
theorem exit0_main_v12 : W6 m ρ c (Proc.devRef .tc main_v12) = W5 m ρ c (Proc.devRef .tc main_v12) := W6_of_ne m ρ c main_v12 (by decide)

theorem exit0_main_v9 : W6 m ρ c (Proc.devRef .tc main_v9) = W5 m ρ c (Proc.devRef .tc main_v9) :=
  (W6_arr m ρ c 1).trans (((dat0 (V5 m ρ) c).arrAt_in 1 rfl _).trans (A_eq0 (V5 m ρ) c 1))

/-! ### Between the regions -/

/-- The first aggregation: gather at the edges' sources, scatter-add at their destinations. -/
theorem mid_aggregate : W7 m ρ c (Proc.devRef .tc main_v23)
    = aggregate (W6 m ρ c (Proc.devRef .tc main_v13)) (W6 m ρ c (Proc.devRef .tc main_arg7)) (W6 m ρ c (Proc.devRef .tc main_arg8)) := by
  dsimp only [W7, hostOps1]
  after_results_simp <;> rfl

/-- The first bias, reshaped to a row. -/
theorem mid_bias : W7 m ρ c (Proc.devRef .tc main_v24) = shapeCast S1x128 (W6 m ρ c (Proc.devRef .tc main_arg2) : FVec F S128 .f32) shapeCasts_S128_S1x128 := by
  dsimp only [W7, hostOps1]
  after_results_simp <;> rfl

theorem mid_main_v12 : W7 m ρ c (Proc.devRef .tc main_v12) = W6 m ρ c (Proc.devRef .tc main_v12) := by
  dsimp only [W7, hostOps1]
  after_results_simp <;> rfl

theorem mid_main_v9 : W7 m ρ c (Proc.devRef .tc main_v9) = W6 m ρ c (Proc.devRef .tc main_v9) := by
  dsimp only [W7, hostOps1]
  after_results_simp <;> rfl

theorem mid_main_arg3 : W7 m ρ c (Proc.devRef .tc main_arg3) = W6 m ρ c (Proc.devRef .tc main_arg3) := by
  dsimp only [W7, hostOps1]
  after_results_simp <;> rfl

theorem mid_main_arg4 : W7 m ρ c (Proc.devRef .tc main_arg4) = W6 m ρ c (Proc.devRef .tc main_arg4) := by
  dsimp only [W7, hostOps1]
  after_results_simp <;> rfl

theorem mid_main_arg5 : W7 m ρ c (Proc.devRef .tc main_arg5) = W6 m ρ c (Proc.devRef .tc main_arg5) := by
  dsimp only [W7, hostOps1]
  after_results_simp <;> rfl

theorem mid_main_arg6 : W7 m ρ c (Proc.devRef .tc main_arg6) = W6 m ρ c (Proc.devRef .tc main_arg6) := by
  dsimp only [W7, hostOps1]
  after_results_simp <;> rfl

theorem mid_main_arg7 : W7 m ρ c (Proc.devRef .tc main_arg7) = W6 m ρ c (Proc.devRef .tc main_arg7) := by
  dsimp only [W7, hostOps1]
  after_results_simp <;> rfl

theorem mid_main_arg8 : W7 m ρ c (Proc.devRef .tc main_arg8) = W6 m ρ c (Proc.devRef .tc main_arg8) := by
  dsimp only [W7, hostOps1]
  after_results_simp <;> rfl

theorem mid_main_arg9 : W7 m ρ c (Proc.devRef .tc main_arg9) = W6 m ρ c (Proc.devRef .tc main_arg9) := by
  dsimp only [W7, hostOps1]
  after_results_simp <;> rfl

/-! ### Across the second region: only its output array changes -/

theorem exit1_main_arg4 : W8 m ρ c (Proc.devRef .tc main_arg4) = W7 m ρ c (Proc.devRef .tc main_arg4) := W8_of_ne m ρ c main_arg4 (by decide)
theorem exit1_main_arg5 : W8 m ρ c (Proc.devRef .tc main_arg5) = W7 m ρ c (Proc.devRef .tc main_arg5) := W8_of_ne m ρ c main_arg5 (by decide)
theorem exit1_main_arg6 : W8 m ρ c (Proc.devRef .tc main_arg6) = W7 m ρ c (Proc.devRef .tc main_arg6) := W8_of_ne m ρ c main_arg6 (by decide)
theorem exit1_main_arg7 : W8 m ρ c (Proc.devRef .tc main_arg7) = W7 m ρ c (Proc.devRef .tc main_arg7) := W8_of_ne m ρ c main_arg7 (by decide)
theorem exit1_main_arg8 : W8 m ρ c (Proc.devRef .tc main_arg8) = W7 m ρ c (Proc.devRef .tc main_arg8) := W8_of_ne m ρ c main_arg8 (by decide)
theorem exit1_main_arg9 : W8 m ρ c (Proc.devRef .tc main_arg9) = W7 m ρ c (Proc.devRef .tc main_arg9) := W8_of_ne m ρ c main_arg9 (by decide)

theorem exit1_main_v12 : W8 m ρ c (Proc.devRef .tc main_v12) = W7 m ρ c (Proc.devRef .tc main_v12) :=
  (W8_arr m ρ c 1).trans (((dat1 (V7 m ρ) c).arrAt_in 1 rfl _).trans (A_eq1 (V7 m ρ) c 1))

/-! ### After the second region -/

/-- The result buffer from the second region's output array and the buffers it finds beside it. -/
theorem tail_result : W11 m ρ c (Proc.devRef .tc main_v55)
    = readout (addf (mulf (aggregate (W8 m ρ c (Proc.devRef .tc main_v25)) (W8 m ρ c (Proc.devRef .tc main_arg7)) (W8 m ρ c (Proc.devRef .tc main_arg8)))
          (lanes (W8 m ρ c (Proc.devRef .tc main_v12))))
        (rows (shapeCast S1x128 (W8 m ρ c (Proc.devRef .tc main_arg4) : FVec F S128 .f32) shapeCasts_S128_S1x128)))
      (W8 m ρ c (Proc.devRef .tc main_arg9)) (W8 m ρ c (Proc.devRef .tc main_arg5)) (W8 m ρ c (Proc.devRef .tc main_arg6)) := by
  dsimp only [W11, W10, W9, hostOps2, hostOps2_1, hostOps2_2]
  after_results_simp <;> rfl

/-! ### The arguments and the scale columns at each boundary -/

theorem at6_arg2 : W6 m ρ c (Proc.devRef .tc main_arg2) = (m ((c.tc : Thread nD τ).loc main_arg2)) := (exit0_main_arg2 m ρ c).trans (head_arg2 m ρ c)
theorem at6_arg3 : W6 m ρ c (Proc.devRef .tc main_arg3) = (m ((c.tc : Thread nD τ).loc main_arg3)) := (exit0_main_arg3 m ρ c).trans (head_arg3 m ρ c)
theorem at6_arg4 : W6 m ρ c (Proc.devRef .tc main_arg4) = (m ((c.tc : Thread nD τ).loc main_arg4)) := (exit0_main_arg4 m ρ c).trans (head_arg4 m ρ c)
theorem at6_arg5 : W6 m ρ c (Proc.devRef .tc main_arg5) = (m ((c.tc : Thread nD τ).loc main_arg5)) := (exit0_main_arg5 m ρ c).trans (head_arg5 m ρ c)
theorem at6_arg6 : W6 m ρ c (Proc.devRef .tc main_arg6) = (m ((c.tc : Thread nD τ).loc main_arg6)) := (exit0_main_arg6 m ρ c).trans (head_arg6 m ρ c)
theorem at6_arg7 : W6 m ρ c (Proc.devRef .tc main_arg7) = (m ((c.tc : Thread nD τ).loc main_arg7)) := (exit0_main_arg7 m ρ c).trans (head_arg7 m ρ c)
theorem at6_arg8 : W6 m ρ c (Proc.devRef .tc main_arg8) = (m ((c.tc : Thread nD τ).loc main_arg8)) := (exit0_main_arg8 m ρ c).trans (head_arg8 m ρ c)
theorem at6_arg9 : W6 m ρ c (Proc.devRef .tc main_arg9) = (m ((c.tc : Thread nD τ).loc main_arg9)) := (exit0_main_arg9 m ρ c).trans (head_arg9 m ρ c)
theorem at7_arg3 : W7 m ρ c (Proc.devRef .tc main_arg3) = (m ((c.tc : Thread nD τ).loc main_arg3)) := (mid_main_arg3 m ρ c).trans (at6_arg3 m ρ c)
theorem at7_arg4 : W7 m ρ c (Proc.devRef .tc main_arg4) = (m ((c.tc : Thread nD τ).loc main_arg4)) := (mid_main_arg4 m ρ c).trans (at6_arg4 m ρ c)
theorem at7_arg5 : W7 m ρ c (Proc.devRef .tc main_arg5) = (m ((c.tc : Thread nD τ).loc main_arg5)) := (mid_main_arg5 m ρ c).trans (at6_arg5 m ρ c)
theorem at7_arg6 : W7 m ρ c (Proc.devRef .tc main_arg6) = (m ((c.tc : Thread nD τ).loc main_arg6)) := (mid_main_arg6 m ρ c).trans (at6_arg6 m ρ c)
theorem at7_arg7 : W7 m ρ c (Proc.devRef .tc main_arg7) = (m ((c.tc : Thread nD τ).loc main_arg7)) := (mid_main_arg7 m ρ c).trans (at6_arg7 m ρ c)
theorem at7_arg8 : W7 m ρ c (Proc.devRef .tc main_arg8) = (m ((c.tc : Thread nD τ).loc main_arg8)) := (mid_main_arg8 m ρ c).trans (at6_arg8 m ρ c)
theorem at7_arg9 : W7 m ρ c (Proc.devRef .tc main_arg9) = (m ((c.tc : Thread nD τ).loc main_arg9)) := (mid_main_arg9 m ρ c).trans (at6_arg9 m ρ c)
theorem at8_arg4 : W8 m ρ c (Proc.devRef .tc main_arg4) = (m ((c.tc : Thread nD τ).loc main_arg4)) := (exit1_main_arg4 m ρ c).trans (at7_arg4 m ρ c)
theorem at8_arg5 : W8 m ρ c (Proc.devRef .tc main_arg5) = (m ((c.tc : Thread nD τ).loc main_arg5)) := (exit1_main_arg5 m ρ c).trans (at7_arg5 m ρ c)
theorem at8_arg6 : W8 m ρ c (Proc.devRef .tc main_arg6) = (m ((c.tc : Thread nD τ).loc main_arg6)) := (exit1_main_arg6 m ρ c).trans (at7_arg6 m ρ c)
theorem at8_arg7 : W8 m ρ c (Proc.devRef .tc main_arg7) = (m ((c.tc : Thread nD τ).loc main_arg7)) := (exit1_main_arg7 m ρ c).trans (at7_arg7 m ρ c)
theorem at8_arg8 : W8 m ρ c (Proc.devRef .tc main_arg8) = (m ((c.tc : Thread nD τ).loc main_arg8)) := (exit1_main_arg8 m ρ c).trans (at7_arg8 m ρ c)
theorem at8_arg9 : W8 m ρ c (Proc.devRef .tc main_arg9) = (m ((c.tc : Thread nD τ).loc main_arg9)) := (exit1_main_arg9 m ρ c).trans (at7_arg9 m ρ c)

/-- A reshape of a per-node vector to a column is the host's broadcast of it into a column. -/
theorem column_of_reshape (v : FVec F S50000 .f32) : shapeCast S50000x1 v shapeCasts_S50000_S50000x1 = column v :=
  Cert.ColumnInDim.shapeCast_eq_broadcastInDim v _ _

/-- A reshape of a length-128 bias to a row is the host's broadcast of it into a row. -/
theorem row_of_reshape (b : FVec F S128 .f32) : shapeCast S1x128 b shapeCasts_S128_S1x128 = asRow b :=
  Cert.RowOfVector.shapeCast_eq_broadcastInDim (by decide) b _ _

theorem at5_src : W5 m ρ c (Proc.devRef .tc main_v9) = column (degreeScale (m ((c.tc : Thread nD τ).loc main_arg7))) :=
  (head_src m ρ c).trans (column_of_reshape _)
theorem at5_dst : W5 m ρ c (Proc.devRef .tc main_v12) = column (degreeScale (m ((c.tc : Thread nD τ).loc main_arg8))) :=
  (head_dst m ρ c).trans (column_of_reshape _)
theorem at7_src : W7 m ρ c (Proc.devRef .tc main_v9) = column (degreeScale (m ((c.tc : Thread nD τ).loc main_arg7))) :=
  (mid_main_v9 m ρ c).trans ((exit0_main_v9 m ρ c).trans (at5_src m ρ c))
theorem at7_dst : W7 m ρ c (Proc.devRef .tc main_v12) = column (degreeScale (m ((c.tc : Thread nD τ).loc main_arg8))) :=
  (mid_main_v12 m ρ c).trans ((exit0_main_v12 m ρ c).trans (at5_dst m ρ c))
theorem at8_dst : W8 m ρ c (Proc.devRef .tc main_v12) = column (degreeScale (m ((c.tc : Thread nD τ).loc main_arg8))) :=
  (exit1_main_v12 m ρ c).trans (at7_dst m ρ c)
theorem at7_bias : W7 m ρ c (Proc.devRef .tc main_v24) = asRow (m ((c.tc : Thread nD τ).loc main_arg2)) := by
  rw [mid_bias, at6_arg2]
  exact row_of_reshape _

end AnyFloat

/-! ## The regions' output arrays and the result, at the extended reals -/

section AtIdeal

variable (m : (ℓ : Loc nD τ sig) → Buf (Elt Ideal) ℓ) (ρ : Dev nD → PrngReg) (c : Dev nD)

/-- The first region's output array: the reference's first dense product. -/
theorem product1 : W6 m ρ c (Proc.devRef .tc main_v13) = dense (F := Ideal) (m ((c.tc : Thread nD τ).loc main_arg0)) (m ((c.tc : Thread nD τ).loc main_arg7)) (m ((c.tc : Thread nD τ).loc main_arg1)) := by
  have h : W6 m ρ c (Proc.devRef .tc main_v13)
      = scaledProduct (V5 m ρ c main_arg0) (V5 m ρ c main_v9) (V5 m ρ c main_arg1) :=
    (W6_arr m ρ c 3).trans (Cert.KernelIdeal.Layer1.output_eq (V5 m ρ) c)
  have e0 : V5 m ρ c main_arg0 = (m ((c.tc : Thread nD τ).loc main_arg0)) := head_arg0 m ρ c
  have e1 : V5 m ρ c main_v9 = column (degreeScale (F := Ideal) (m ((c.tc : Thread nD τ).loc main_arg7))) := at5_src m ρ c
  have e2 : V5 m ρ c main_arg1 = (m ((c.tc : Thread nD τ).loc main_arg1)) := head_arg1 m ρ c
  rw [h, e0, e1, e2]
  exact (dense_scaled _ _ _).symm

/-- The aggregate the second region finds. -/
theorem aggregate1 : W7 m ρ c (Proc.devRef .tc main_v23) = aggregate (dense (F := Ideal) (m ((c.tc : Thread nD τ).loc main_arg0)) (m ((c.tc : Thread nD τ).loc main_arg7)) (m ((c.tc : Thread nD τ).loc main_arg1))) (m ((c.tc : Thread nD τ).loc main_arg7)) (m ((c.tc : Thread nD τ).loc main_arg8)) := by
  rw [mid_aggregate, product1, at6_arg7, at6_arg8]

/-- The second region's output array: the reference's second dense product of the first layer's output. -/
theorem product2 : W8 m ρ c (Proc.devRef .tc main_v25)
    = dense (relu (normalized (aggregate (dense (F := Ideal) (m ((c.tc : Thread nD τ).loc main_arg0)) (m ((c.tc : Thread nD τ).loc main_arg7)) (m ((c.tc : Thread nD τ).loc main_arg1))) (m ((c.tc : Thread nD τ).loc main_arg7)) (m ((c.tc : Thread nD τ).loc main_arg8))) (m ((c.tc : Thread nD τ).loc main_arg8)) (m ((c.tc : Thread nD τ).loc main_arg2)))) (m ((c.tc : Thread nD τ).loc main_arg7)) (m ((c.tc : Thread nD τ).loc main_arg3)) := by
  have h : W8 m ρ c (Proc.devRef .tc main_v25)
      = hiddenProduct (V7 m ρ c main_v23) (V7 m ρ c main_v12) (V7 m ρ c main_v24) (V7 m ρ c main_v9) (V7 m ρ c main_arg3) :=
    (W8_arr m ρ c 5).trans (Cert.KernelIdeal.Layer2.output_eq (V7 m ρ) c)
  have e0 : V7 m ρ c main_v23 = aggregate (dense (F := Ideal) (m ((c.tc : Thread nD τ).loc main_arg0)) (m ((c.tc : Thread nD τ).loc main_arg7)) (m ((c.tc : Thread nD τ).loc main_arg1))) (m ((c.tc : Thread nD τ).loc main_arg7)) (m ((c.tc : Thread nD τ).loc main_arg8)) := aggregate1 m ρ c
  have e1 : V7 m ρ c main_v12 = column (degreeScale (F := Ideal) (m ((c.tc : Thread nD τ).loc main_arg8))) := at7_dst m ρ c
  have e2 : V7 m ρ c main_v24 = asRow (F := Ideal) (m ((c.tc : Thread nD τ).loc main_arg2)) := at7_bias m ρ c
  have e3 : V7 m ρ c main_v9 = column (degreeScale (F := Ideal) (m ((c.tc : Thread nD τ).loc main_arg7))) := at7_src m ρ c
  have e4 : V7 m ρ c main_arg3 = (m ((c.tc : Thread nD τ).loc main_arg3)) := at7_arg3 m ρ c
  rw [h, e0, e1, e2, e3, e4]
  exact (dense_hidden _ _ _ _ _).symm

/-- The result buffer at the return: the reference's network of the launch contents of the arguments. -/
theorem result_eq : W11 m ρ c (Proc.devRef .tc main_v55)
    = network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [tail_result, product2, at8_dst, at8_arg4, at8_arg5, at8_arg6, at8_arg7, at8_arg8, at8_arg9]
  refine (congrArg (fun r => readout (F := Ideal) (addf (mulf _ _) (rows r)) _ _ _)
    (row_of_reshape (F := Ideal) (m ((c.tc : Thread nD τ).loc main_arg4)))).trans ?_
  unfold network normalized
  rfl

end AtIdeal

end Cert.KernelIdeal.Stages

end
-- ==== Proof.lean ====
/-
  A two-layer graph convolution with a mean read-out: a Pallas kernel program against its jnp reference.

  Both programs compute, over the extended reals,

    scale(e)  = rsqrt(max(1, number of edges whose endpoint array e names the node))
    h1        = relu((A · ((x ⊙ scale(src)) · w1)) ⊙ scale(dst) + b1)
    h2        = (A · ((h1 ⊙ scale(src)) · w2)) ⊙ scale(dst) + b2
    result    = (per-graph sum of h2 / max(1, per-graph node count)) · wl + bl

  where A · h sums, at each node, the rows of h at the sources of its incoming edges (a gather followed by a
  scatter-add). The reference does every step on the host. The kernel program does the two dense products
  (x ⊙ scale(src)) · w1 and (relu(a ⊙ scale(dst) + b1) ⊙ scale(src)) · w2 in two pipelined kernel regions, 2000 rows at a
  time, and everything else on the host with the same operations; its scale columns and bias rows are laid out by
  reshapes where the reference broadcasts. A block of rows of a dense product depends on the same rows of its operands
  only, the blocks tile the array, a matrix-unit product from a zero accumulator and a host dot_general are the same sum
  of products, a rounding to bf16 is the identity on extended reals, and a reshape of a vector to a column or a row holds
  the entries the broadcast holds: so both programs end with the same function of the arguments, and no law of
  arithmetic beyond that is used — the inputs' finiteness is never opened.

  The three frame claims are the generated frames (the reference's is its generated run with the result dropped); the
  idealization rewrote nothing, so `preserves` is trivial; `algebraic` puts the kernel program's run with its result
  named beside the reference's run and rewrites both results to the one `network` term.
-/
import proofs.«125797_j72928544686321_1_alg».proof.Defs
import proofs.«125797_j72928544686321_1_alg».proof.Proof.Gen.Kernel
import proofs.«125797_j72928544686321_1_alg».proof.Proof.Gen.Kernel.Frame
import proofs.«125797_j72928544686321_1_alg».proof.Proof.Gen.KernelIdeal
import proofs.«125797_j72928544686321_1_alg».proof.Proof.Gen.KernelIdeal.Frame
import proofs.«125797_j72928544686321_1_alg».proof.Proof.Gen.ReferenceIdeal
import proofs.«125797_j72928544686321_1_alg».proof.Proof.Gen.ReferenceIdeal.Run
import proofs.«125797_j72928544686321_1_alg».proof.Proof.Gen.Pre_finite_inputs
import proofs.«125797_j72928544686321_1_alg».proof.Proof.KernelRun
import proofs.«125797_j72928544686321_1_alg».proof.Proof.KernelStages
import proofs.«125797_j72928544686321_1_alg».proof.Proof.ReferenceModel
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network of the arguments in their result
    buffers, and with the arguments unchanged. -/
theorem algebraic : Cert.algebraic_KernelIdeal_ReferenceIdeal := by
  intro m ρ m' ρ' _ hagree
  refine ⟨fun c => Cert.ReferenceIdeal.Model.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Stages.result_eq m ρ c), (h c).2⟩)
      (Cert.KernelIdeal.Whole.run_result m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Model.result_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
